-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S4096x50 : Shape := ⟨2, ![4096, 50]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S4096 : S_.BroadcastsInDim S4096 (![] : Fin 0 → Fin S4096.rank)
  reducesTo_S4096_S_d0 : S4096.ReducesTo [0] S_
  bcast_S_S4096x50 : S_.BroadcastsInDim S4096x50 (![] : Fin 0 → Fin S4096x50.rank)
  reducesTo_S4096x50_S_d0_1 : S4096x50.ReducesTo [0, 1] S_

variable [Facts]

def fn_part2 {F : FTy → Type} [FloatOps F] (main_arg4 : IVec S4096 32) (main_arg5 : IVec S4096 32) (main_v31 : IVec S_ 1) (main_v32 : IVec S4096 32) : IVec S_ 1 :=
  let main_v33 : IVec S4096 1 := cmpi .sge main_arg4 main_v32
  let main_c_13 : IVec S_ 32 := constantI S_ 32 4095#32
  let main_v34 : IVec S4096 32 := broadcastInDim S4096 ![] bcast_S_S4096 main_c_13
  let main_v35 : IVec S4096 1 := cmpi .sle main_arg4 main_v34
  let main_v36 : IVec S4096 1 := andi main_v33 main_v35
  let main_c_14 : IVec S_ 1 := constantI S_ 1 1#1
  let main_v37 : IVec S_ 1 := (fun x v => Host.reduce IntOp.andi x v reducesTo_S4096_S_d0 h_S_) main_v36 main_c_14
  let main_v38 : IVec S_ 1 := andi main_v31 main_v37
  let main_c_15 : IVec S_ 32 := constantI S_ 32 0#32
  let main_v39 : IVec S4096 32 := broadcastInDim S4096 ![] bcast_S_S4096 main_c_15
  let main_v40 : IVec S4096 1 := cmpi .sge main_arg5 main_v39
  let main_c_16 : IVec S_ 32 := constantI S_ 32 0#32
  let main_v41 : IVec S4096 32 := broadcastInDim S4096 ![] bcast_S_S4096 main_c_16
  let main_v42 : IVec S4096 1 := cmpi .sle main_arg5 main_v41
  let main_v43 : IVec S4096 1 := andi main_v40 main_v42
  let main_c_17 : IVec S_ 1 := constantI S_ 1 1#1
  let main_v44 : IVec S_ 1 := (fun x v => Host.reduce IntOp.andi x v reducesTo_S4096_S_d0 h_S_) main_v43 main_c_17
  let main_v45 : IVec S_ 1 := andi main_v38 main_v44
  main_v45

def fn_part1 {F : FTy → Type} [FloatOps F] (main_arg2 : IVec S4096x50 32) (main_arg3 : IVec S4096 32) (main_arg4 : IVec S4096 32) (main_arg5 : IVec S4096 32) (main_v10 : IVec S_ 1) (main_v15 : IVec S4096x50 1) (main_c_5 : IVec S_ 1) : IVec S_ 1 :=
  let main_v16 : IVec S_ 1 := (fun x v => Host.reduce IntOp.andi x v reducesTo_S4096x50_S_d0_1 h_S_) main_v15 main_c_5
  let main_v17 : IVec S_ 1 := andi main_v10 main_v16
  let main_c_6 : IVec S_ 32 := constantI S_ 32 0#32
  let main_v18 : IVec S4096x50 32 := broadcastInDim S4096x50 ![] bcast_S_S4096x50 main_c_6
  let main_v19 : IVec S4096x50 1 := cmpi .sge main_arg2 main_v18
  let main_c_7 : IVec S_ 32 := constantI S_ 32 99999#32
  let main_v20 : IVec S4096x50 32 := broadcastInDim S4096x50 ![] bcast_S_S4096x50 main_c_7
  let main_v21 : IVec S4096x50 1 := cmpi .sle main_arg2 main_v20
  let main_v22 : IVec S4096x50 1 := andi main_v19 main_v21
  let main_c_8 : IVec S_ 1 := constantI S_ 1 1#1
  let main_v23 : IVec S_ 1 := (fun x v => Host.reduce IntOp.andi x v reducesTo_S4096x50_S_d0_1 h_S_) main_v22 main_c_8
  let main_v24 : IVec S_ 1 := andi main_v17 main_v23
  let main_c_9 : IVec S_ 32 := constantI S_ 32 0#32
  let main_v25 : IVec S4096 32 := broadcastInDim S4096 ![] bcast_S_S4096 main_c_9
  let main_v26 : IVec S4096 1 := cmpi .sge main_arg3 main_v25
  let main_c_10 : IVec S_ 32 := constantI S_ 32 99999#32
  let main_v27 : IVec S4096 32 := broadcastInDim S4096 ![] bcast_S_S4096 main_c_10
  let main_v28 : IVec S4096 1 := cmpi .sle main_arg3 main_v27
  let main_v29 : IVec S4096 1 := andi main_v26 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v24 main_v30
  let main_c_12 : IVec S_ 32 := constantI S_ 32 0#32
  let main_v32 : IVec S4096 32 := broadcastInDim S4096 ![] bcast_S_S4096 main_c_12
  fn_part2 (F := F) main_arg4 main_arg5 main_v31 main_v32

def fn {F : FTy → Type} [FloatOps F] (main_arg0 : IVec S4096 32) (main_arg1 : IVec S4096x50 32) (main_arg2 : IVec S4096x50 32) (main_arg3 : IVec S4096 32) (main_arg4 : IVec S4096 32) (main_arg5 : IVec S4096 32) (main_arg6 : FVec F S100000 .f32) : IVec S_ 1 :=
  let main_v0 : FVec F S100000 .f32 := Host.absf main_arg6
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_c_0 : IVec S_ 32 := constantI S_ 32 0#32
  let main_v4 : IVec S4096 32 := broadcastInDim S4096 ![] bcast_S_S4096 main_c_0
  let main_v5 : IVec S4096 1 := cmpi .sge main_arg0 main_v4
  let main_c_1 : IVec S_ 32 := constantI S_ 32 99999#32
  let main_v6 : IVec S4096 32 := broadcastInDim S4096 ![] bcast_S_S4096 main_c_1
  let main_v7 : IVec S4096 1 := cmpi .sle main_arg0 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S4096x50 32 := broadcastInDim S4096x50 ![] bcast_S_S4096x50 main_c_3
  let main_v12 : IVec S4096x50 1 := cmpi .sge main_arg1 main_v11
  let main_c_4 : IVec S_ 32 := constantI S_ 32 99999#32
  let main_v13 : IVec S4096x50 32 := broadcastInDim S4096x50 ![] bcast_S_S4096x50 main_c_4
  let main_v14 : IVec S4096x50 1 := cmpi .sle main_arg1 main_v13
  let main_v15 : IVec S4096x50 1 := andi main_v12 main_v14
  let main_c_5 : IVec S_ 1 := constantI S_ 1 1#1
  fn_part1 (F := F) main_arg2 main_arg3 main_arg4 main_arg5 main_v10 main_v15 main_c_5
-- ==== Kernel.lean ====
abbrev S4096 : Shape := ⟨1, ![4096]⟩
abbrev S4096x50 : Shape := ⟨2, ![4096, 50]⟩
abbrev S100000 : Shape := ⟨1, ![100000]⟩
abbrev S256 : Shape := ⟨1, ![256]⟩
abbrev S_ : Shape := ⟨0, ![]⟩

abbrev nBuf : Table → Nat
  | .hbm => 8
  | .local .scVector .vmem => 2
  | _ => 0

abbrev bufTy : (tb : Table) → Fin (nBuf tb) → BufTy
  | .hbm, ⟨0, _⟩ => ⟨S4096, .i32⟩
  | .hbm, ⟨1, _⟩ => ⟨S4096x50, .i32⟩
  | .hbm, ⟨2, _⟩ => ⟨S4096x50, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S100000, .f32⟩
  | .hbm, ⟨7, _⟩ => ⟨S4096, .f32⟩
  | .local .scVector .vmem, ⟨0, _⟩ => ⟨S256, .i32⟩
  | .local .scVector .vmem, ⟨1, _⟩ => ⟨S256, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_arg6_scv : Ref sig .scVector := ⟨.hbm, 6, rfl⟩
abbrev main_arg3_scv : Ref sig .scVector := ⟨.hbm, 3, rfl⟩
abbrev main_v0_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000_S100000_0 : ∀ a, (![0] : Fin 1 → Nat) a + S100000.size a ≤ S100000.size a
  gathers_S100000_S256 : S100000.Gathers 0 S256
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S4096.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096 : Shape := ⟨1, ![4096]⟩
abbrev S4096x50 : Shape := ⟨2, ![4096, 50]⟩
abbrev S100000 : Shape := ⟨1, ![100000]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x50, .i32⟩
  | .hbm, ⟨2, _⟩ => ⟨S4096x50, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S100000, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S1x1, .i32⟩
  | .hbm, ⟨35, _⟩ => ⟨S4096x1, .i32⟩
  | .hbm, ⟨36, _⟩ => ⟨S4096x1, .i1⟩
  | .hbm, ⟨37, _⟩ => ⟨S4096x1, .i1⟩
  | .hbm, ⟨38, _⟩ => ⟨S_, .i1⟩
  | .hbm, ⟨39, _⟩ => ⟨S4096, .i1⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v5 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_v8 : Ref sig .tc := ⟨.hbm, 46, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  gather_S100000_S4096x1_S4096_n_0_n_n_0_1_1_wf : GatherDims.WF S100000 S4096x1 S4096 [] [0] [] [0] [] 1 ![1]

variable [Facts₀]

def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf

class Facts : Prop extends Facts₀ where

variable [Facts]
-- ==== Proof.Spec.lean ====
/-
  The function both programs compute: a table lookup. Entry `j` of the result is the table's entry at the position
  the `j`-th index word names. The position is taken modulo the table's length so that the function is total; for an
  index word below 100000 (what the precondition grants) it is the word's own value.
-/
import Idealize.ShloMosaic.Lib.ValueIdx

namespace Cert.Spec

open Idealize.ShloMosaic

abbrev S4096 : Shape := ⟨1, ![4096]⟩
abbrev S100000 : Shape := ⟨1, ![100000]⟩

/-- The table position an index word names. -/
def pos (w : BitVec 32) : S100000.Idx := ValueIdx.ix1 (⟨w.toNat % 100000, Nat.mod_lt _ (by omega)⟩ : Fin 100000)

/-- `lookup tbl idx j = tbl[idx[j]]`. -/
def lookup {α : Type} (tbl : S100000.Idx → α) (idx : S4096.Idx → BitVec 32) : S4096.Idx → α :=
  fun j => tbl (pos (idx j))

/-- For an index word in range the position is the word's value. -/
theorem pos_val (w : BitVec 32) (h : w.toNat < 100000) : (pos w 0).val = w.toNat :=
  Nat.mod_eq_of_lt h

/-- A position is determined by its one coordinate. -/
theorem pos_eq_of_val (w : BitVec 32) (h : w.toNat < 100000) (i : S100000.Idx) (hi : (i 0).val = w.toNat) : i = pos w := by
  funext d
  match d with
  | ⟨0, _⟩ => exact Fin.ext (hi.trans (pos_val w h).symm)

end Cert.Spec
-- ==== Proof.KI.lean ====
/-
  The idealized kernel's run. Sixteen vector subcores of one SparseCore each take one block of 256 consecutive
  positions: a subcore copies its 256 index words from the index array into a scratch list, gathers the table's
  entries at the positions the list names into a second scratch, and copies that scratch out to its block of the
  result. The table is only read, so every subcore holds a sixteenth share of it; the index array and the result are
  cut into the sixteen blocks. What the run leaves: every argument array as it was, and the result array equal,
  entry by entry, to the table read at the index array's words (`Cert.Spec.lookup`), provided every index word is
  below the table's length, which is what makes each gathered position a position of the table.
-/
import proofs.«209424_g45870250721293_cont_8to1_b_920_9_alg».proof.KernelIdeal
import proofs.«209424_g45870250721293_cont_8to1_b_920_9_alg».proof.Proof.Gen.KernelIdeal
import proofs.«209424_g45870250721293_cont_8to1_b_920_9_alg».proof.Proof.Gen.KernelIdeal.Skeleton
import proofs.«209424_g45870250721293_cont_8to1_b_920_9_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array, the table and the result, as locations of device `d`; then the five arguments the kernel never touches. -/
abbrev iLoc (d : Dev nD) : Loc nD τ sig := (SparseCore.T d).loc main_arg3
abbrev xLoc (d : Dev nD) : Loc nD τ sig := (SparseCore.T d).loc main_arg6
abbrev oLoc (d : Dev nD) : Loc nD τ sig := (SparseCore.T d).loc main_v0
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a4Loc (d : Dev nD) : Loc nD τ sig := (SparseCore.T d).loc main_arg4
abbrev a5Loc (d : Dev nD) : Loc nD τ sig := (SparseCore.T d).loc main_arg5

local notation "iV" => (Memref.whole Cert.KernelIdeal.main_arg3_scv : Memref Cert.KernelIdeal.sig Kind.scVector Space.hbm Cert.KernelIdeal.S4096 EltTy.i32)
local notation "xV" => (Memref.whole Cert.KernelIdeal.main_arg6_scv : Memref Cert.KernelIdeal.sig Kind.scVector Space.hbm Cert.KernelIdeal.S100000 EltTy.f32)
local notation "oV" => (Memref.whole Cert.KernelIdeal.main_v0_scv : Memref Cert.KernelIdeal.sig Kind.scVector Space.hbm Cert.KernelIdeal.S4096 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256 EltTy.f32)

/-- The result the kernel is to leave: the table read at the index array's words. -/
def G (d : Dev nD) : Buf (Elt F) (oLoc d) := Cert.Spec.lookup (m (xLoc d)) (m (iLoc d))

/-- What the proof asks of the launch memory: every index word is a position of the table. -/
def PreOK : Prop := ∀ (d : Dev nD) (j : S4096.Idx), (m (iLoc d) j).toNat < 100000

theorem bdiv : 16 ∣ S4096.size 0 := ⟨256, rfl⟩
/-- Block `i` of the 4096 positions: positions `256 i … 256 i + 255`. -/
abbrev blk (i : Fin 16) : Rect S4096 := Rect.part (s := S4096) (a₀ := 0) bdiv i
abbrev iBlkSet (i : Fin 16) : Finset S4096.Idx := ((iV).view.slice (blk i)).set
abbrev oBlkSet (i : Fin 16) : Finset S4096.Idx := ((oV).view.slice (blk i)).set

/-- Subcore `i`'s share of the table: the full share cut into sixteen pieces. -/
abbrev xq (i : Fin 16) : PosShare TreeShare := pieceOf fullShare 16 (by decide) i

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iBlkPts (d : Dev nD) (i : Fin 16) : sProp 𝕄 := iLoc d ↦[iBlkSet i]{fullShare} m (iLoc d)
abbrev xShPts (d : Dev nD) (i : Fin 16) : sProp 𝕄 := xLoc d ↦{xq i} m (xLoc d)
abbrev oBlkPts (d : Dev nD) (i : Fin 16) (f : Buf (Elt F) (oLoc d)) : sProp 𝕄 := oLoc d ↦[oBlkSet i]{fullShare} f

/-- The one call takes the index array, the table and the result whole; each subcore its block of the index array, its
    share of the table and its block of the result, and brings them back, the result's block holding the looked-up entries. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (G m d))
  go := fun q d _ i => match q with
    | 0 => iprop(iBlkPts m d (Fin.cast nSub_zero i) ∗ xShPts m d (Fin.cast nSub_zero i) ∗ oBlkPts d (Fin.cast nSub_zero i) (m (oLoc d)))
  td := fun q d _ i => match q with
    | 0 => iprop(iBlkPts m d (Fin.cast nSub_zero i) ∗ xShPts m d (Fin.cast nSub_zero i) ∗ oBlkPts d (Fin.cast nSub_zero i) (G m d))
  x := fun _ _ => iprop(emp)

instance P_storable : (P (F := F) m).IsStorable where
  st q d _ := match q with
    | 0 => (inferInstance : BI.Storable (upEmb : UEmb _ 𝕄) iprop(iPts m d ∗ xPts m d ∗ oPts d (m (oLoc d))))
  dn q d _ := match q with
    | 0 => (inferInstance : BI.Storable (upEmb : UEmb _ 𝕄) iprop(iPts m d ∗ xPts m d ∗ oPts d (G m d)))
  go q d _ i := match q with
    | 0 => (inferInstance : BI.Storable (upEmb : UEmb _ 𝕄)
      iprop(iBlkPts m d (Fin.cast nSub_zero i) ∗ xShPts m d (Fin.cast nSub_zero i) ∗ oBlkPts d (Fin.cast nSub_zero i) (m (oLoc d))))
  td q d _ i := match q with
    | 0 => (inferInstance : BI.Storable (upEmb : UEmb _ 𝕄)
      iprop(iBlkPts m d (Fin.cast nSub_zero i) ∗ xShPts m d (Fin.cast nSub_zero i) ∗ oBlkPts d (Fin.cast nSub_zero i) (G m d)))

/-! ## One subcore's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The block as the subcore at `L` addresses it: 256 positions from the offset the body computes. -/
abbrev blkK (L : grid0.Coords) : Rect S4096 := Rect.unit (s := S4096) (k0_off1 L) S256.size (k0_off1_inb L)
abbrev iBlkK (L : grid0.Coords) : Memref sig .scVector .hbm S256 .i32 := (iV).slice (blkK L) (fun _ => rfl)
abbrev oBlkK (L : grid0.Coords) : Memref sig .scVector .hbm S256 .f32 := (oV).slice (blkK L) (fun _ => rfl)
abbrev xAllK : Memref sig .scVector .hbm S100000 .f32 := (xV).slice (Rect.unit (s := S100000) ![0] S100000.size inb_S100000_S100000_0) (fun _ => rfl)

omit [FloatOps F] in
/-- The body's offset `256·(L 1) + 256·(L 0)` is block `L 1`'s start: there is one SparseCore in the grid, `L 0 = 0`. -/
theorem blkK_eq : blkK L = blk (jL L) := by
  have h0 : (L 0).val = 0 := by have := (L 0).isLt; simpa [grid0] using this
  unfold blkK blk Rect.part Rect.block
  congr 1 <;> funext a
  · rw [k0_off1_eq]
    match a with
    | 0 => simp [Shape.partIx, Shape.partSize, h0]; omega
  · match a with
    | 0 => simp [Shape.partSize]

omit [FloatOps F] in
theorem set_iBlkK : (iBlkK L).view.set = iBlkSet (jL L) := by
  show ((iV).view.slice (blkK L)).set = ((iV).view.slice (blk (jL L))).set
  rw [blkK_eq]
omit [FloatOps F] in
theorem set_oBlkK : (oBlkK L).view.set = oBlkSet (jL L) := by
  show ((oV).view.slice (blkK L)).set = ((oV).view.slice (blk (jL L))).set
  rw [blkK_eq]

omit [FloatOps F] in
theorem pts_iBlkK (f : Buf (Elt F) (iLoc d)) :
    ((iBlkK L).view.loc (V d (cV L) (jV L)) ↦[(iBlkK L).view.set]{fullShare} f : sProp 𝕄) = iLoc d ↦[iBlkSet (jL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlkSet (jL L)]{fullShare} f := by
  rw [set_oBlkK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three DMA semaphores of a subcore: the index fetch's, the gather's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The positions the gather reads are positions of the table: what the index fetch left in the scratch list is the
    subcore's block of the index array, each word below the table's length. -/
theorem idx_in_table (hpre : PreOK m) (fs : Buf (Elt F) ((V d (cV L) (jV L)).loc cc0_scratch0)) (pay : S256.Idx → Elt F .i32)
    (hpay : pay = (iBlkK L).view.read (Elt F) (m (iLoc d))) :
    ∀ x, ((sV).view.read (Elt F) (View.write (Elt F) (sV).view fs pay Finset.univ) x).toNat < S100000.size gathers_S100000_S256.axis := by
  subst hpay; intro x
  rw [View.read_write_univ]
  exact hpre d ((iBlkK L).view.emb x)

/-- The row of the table that entry `y` of the scratch list names is the index array's word at position `y` of the block. -/
theorem rows_val (fs : Buf (Elt F) ((V d (cV L) (jV L)).loc cc0_scratch0))
    (hn : S256.numel = S256.size gathers_S100000_S256.axis')
    (hin : ∀ x, ((sV).view.read (Elt F) (View.write (Elt F) (sV).view fs (ReadAs.same.apply ((iBlkK L).view.read (Elt F) (m (iLoc d)))) Finset.univ) x).toNat
      < S100000.size gathers_S100000_S256.axis) (y : S256.Idx) :
    (SparseCore.rows ((sV).view.read (Elt F) (View.write (Elt F) (sV).view fs (ReadAs.same.apply ((iBlkK L).view.read (Elt F) (m (iLoc d)))) Finset.univ))
        hn hin (y gathers_S100000_S256.axis')).val
      = (m (iLoc d) ((iBlkK L).view.emb y)).toNat := by
  have e : S256.rowMajor.symm ((y gathers_S100000_S256.axis').cast hn.symm) = y := by
    rw [Equiv.symm_apply_eq]; apply Fin.ext; rw [Shape.rowMajor_val_one]; rfl
  unfold SparseCore.rows
  show (View.read (Elt F) (sV).view _ (S256.rowMajor.symm ((y gathers_S100000_S256.axis').cast hn.symm))).toNat = _
  rw [View.read_write_univ, e]
  rfl

/-- What the write-out leaves in the subcore's block of the result: at every position of the block, the table's entry
    at the position the index array's word there names. The block is written whole with the gathered scratch; entry `y`
    of the gathered scratch is the table at the row entry `y` of the list names; that row is the index word (`hrows`),
    which the precondition bounds by the table's length. -/
theorem out_block_val (hpre : PreOK m) (fr : Buf (Elt F) ((V d (cV L) (jV L)).loc cc0_scratch1))
    (rowsF : Fin (S256.size gathers_S100000_S256.axis') → Fin (S100000.size gathers_S100000_S256.axis))
    (hrows : ∀ y : S256.Idx, (rowsF (y gathers_S100000_S256.axis')).val = (m (iLoc d) ((iBlkK L).view.emb y)).toNat) :
    ∀ i ∈ oBlkSet (jL L),
      (oBlkK L).view.writes (Elt F) (m (oLoc d))
        [⟨Rect.whole S256, ReadAs.same.apply ((rV).view.read (Elt F) ((rV).view.writes (Elt F) fr
          [⟨Rect.whole S256, SparseCore.gatherPayload gathers_S100000_S256 ((xAllK).view.read (Elt F) (m (xLoc d))) rowsF⟩]))⟩] i
        = G m d i := by
  intro i hi
  rw [← set_oBlkK] at hi
  obtain ⟨y, -, rfl⟩ := Finset.mem_map.mp hi
  refine (congrFun (View.read_writes_whole (oBlkK L).view (m (oLoc d)) _) y).trans ?_
  refine (congrFun (View.read_writes_whole (rV).view fr _) y).trans ?_
  unfold SparseCore.gatherPayload G Cert.Spec.lookup
  show m (xLoc d) ((xAllK).view.emb (gathers_S100000_S256.idx rowsF y)) = m (xLoc d) (Cert.Spec.pos (m (iLoc d) ((iBlkK L).view.emb y)))
  refine congrArg (m (xLoc d)) (Cert.Spec.pos_eq_of_val _ (hpre d _) _ ?_)
  show 0 + 1 * (gathers_S100000_S256.idx rowsF y gathers_S100000_S256.axis).val = _
  rw [Nat.zero_add, Nat.one_mul, Shape.Gathers.idx_axis]
  exact hrows y

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iBlkPts m d (jL L) ∗ xShPts m d (jL L) ∗ oBlkPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scoped0 cc0_scoped1)
          fun _ => iprop((iBlkPts m d (jL L) ∗ xShPts m d (jL L) ∗ oBlkPts d (jL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  iintro ⟨#Hlv, -, ⟨Hi, Hx, Ho⟩, Hsb, Hss, HO⟩
  ihave Hss1 := (Entails.of_eq (SparseCore.Cfg.scopedSems0_V (Val := Elt F) d (cV L) (jV L))) $$ Hss
  ihave Hss2 := (Entails.of_eq (ownSems0_V (F := F) d L)) $$ Hss1
  icases Hss2 with ⟨HsA, HsB, HsC, Hsrest⟩
  ihave Hsb1 := (Entails.of_eq ((K (F := F)).scopedBufs_V (Val := Elt F) hF d (cV L) (jV L))) $$ Hsb
  ihave Hsb2 := (Entails.of_eq (ownBufs_V (F := F) d L)) $$ Hsb1
  icases Hsb2 with ⟨⟨%fs, Hs⟩, ⟨%fr, Hr⟩, Hbrest⟩
  ihave Hmw := ((K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hin := idx_in_table (F := F) m d L hpre fs (tile_body.sl.dma0 m d L) rfl
  sl_exec
  sl_step
  have hval : ∀ i ∈ oBlkSet (jL L),
      (oBlkK L).view.writes (Elt F) (m (oLoc d)) [⟨Rect.whole S256, tile_body.sl.dma0_1 m d L fs fr hin⟩] i = G m d i :=
    out_block_val (F := F) m d L hpre fr _ (rows_val (F := F) m d L fs _ hin)
  isplitl [Hi' Hx' Ho']
  · isplitl [Hi']; · iapply (Entails.of_eq (pts_iBlkK (F := F) d L _)); iexact Hi'
    isplitl [Hx']; · iexact Hx'
    ihave Ho2 := (Entails.of_eq (pts_oBlkK (F := F) d L _)) $$ Ho'
    iapply (Entails.of_eq (pointsTo_congr hval)); iexact Ho2
  isplitl [Hs' Hr' Hbrest]
  · iapply (Entails.of_eq ((K (F := F)).scopedBufs_V (Val := Elt F) hF d (cV L) (jV L)).symm)
    iapply (Entails.of_eq (ownBufs_V (F := F) d L).symm)
    isplitl [Hs']; · iexists _; iexact Hs'
    isplitl [Hr']; · iexists _; iexact Hr'
    iexact Hbrest
  isplitl [HsA HsB HsC Hsrest]
  · iapply (Entails.of_eq (SparseCore.Cfg.scopedSems0_V (Val := Elt F) d (cV L) (jV L)).symm)
    iapply (Entails.of_eq (ownSems0_V (F := F) d L).symm)
    isplitl [HsA]; · iexact HsA
    isplitl [HsB]; · iexact HsB
    isplitl [HsC]; · iexact HsC
    iexact Hsrest
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The blocks split and join; the shares of the table -/

omit [FloatOps F] in
theorem iBlkSet_eq (i : Fin 16) : iBlkSet i = (blk i).set := by
  show ((View.whole (main_arg3_scv : Ref sig .scVector)).slice (blk i)).set = _
  rw [View.set_slice]; exact Finset.map_refl
omit [FloatOps F] in
theorem oBlkSet_eq (i : Fin 16) : oBlkSet i = (blk i).set := by
  show ((View.whole (main_v0_scv : Ref sig .scVector)).slice (blk i)).set = _
  rw [View.set_slice]; exact Finset.map_refl
omit [FloatOps F] in
theorem iblks_disjoint : ∀ i ∈ (Finset.univ : Finset (Fin 16)), ∀ j ∈ (Finset.univ : Finset (Fin 16)), i ≠ j → Disjoint (iBlkSet i) (iBlkSet j) :=
  fun i _ j _ h => by rw [iBlkSet_eq, iBlkSet_eq]; exact Rect.part_disjoint bdiv h
omit [FloatOps F] in
theorem oblks_disjoint : ∀ i ∈ (Finset.univ : Finset (Fin 16)), ∀ j ∈ (Finset.univ : Finset (Fin 16)), i ≠ j → Disjoint (oBlkSet i) (oBlkSet j) :=
  fun i _ j _ h => by rw [oBlkSet_eq, oBlkSet_eq]; exact Rect.part_disjoint bdiv h
omit [FloatOps F] in
theorem iblks_cover : (Finset.univ : Finset (Fin 16)).biUnion iBlkSet = Finset.univ :=
  (Finset.biUnion_congr rfl fun i _ => iBlkSet_eq i).trans (Rect.biUnion_part bdiv)
omit [FloatOps F] in
theorem oblks_cover : (Finset.univ : Finset (Fin 16)).biUnion oBlkSet = Finset.univ :=
  (Finset.biUnion_congr rfl fun i _ => oBlkSet_eq i).trans (Rect.biUnion_part bdiv)

omit [FloatOps F] in
theorem iPts_blks (d : Dev nD) (f : Buf (Elt F) (iLoc d)) :
    (iLoc d ↦{fullShare} f : sProp 𝕄) = bigSep Finset.univ fun i : Fin 16 => iLoc d ↦[iBlkSet i]{fullShare} f := by
  rw [← pointsTo_biUnion Finset.univ (ℓ := iLoc d) iBlkSet iblks_disjoint, iblks_cover]; try rfl
omit [FloatOps F] in
theorem oPts_blks (d : Dev nD) (f : Buf (Elt F) (oLoc d)) :
    (oLoc d ↦{fullShare} f : sProp 𝕄) = bigSep Finset.univ fun i : Fin 16 => oLoc d ↦[oBlkSet i]{fullShare} f := by
  rw [← pointsTo_biUnion Finset.univ (ℓ := oLoc d) oBlkSet oblks_disjoint, oblks_cover]; try rfl
omit [FloatOps F] in
theorem xPts_shares (d : Dev nD) (f : Buf (Elt F) (xLoc d)) :
    (xLoc d ↦{fullShare} f : sProp 𝕄) = bigSep Finset.univ fun i : Fin 16 => xLoc d ↦{xq i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iBlkPts m d (Fin.cast nSub_zero i) ∗ xShPts m d (Fin.cast nSub_zero i) ∗ oBlkPts d (Fin.cast nSub_zero i) (m (oLoc d))))
      ∗ ((bigSep Finset.univ fun i : Fin ((K (F := F)).nSub 0) =>
          iprop(iBlkPts m d (Fin.cast nSub_zero i) ∗ xShPts m d (Fin.cast nSub_zero i) ∗ oBlkPts d (Fin.cast nSub_zero i) (G m d)))
          -∗ iprop(iPts m d ∗ xPts m d ∗ oPts d (G m d))))
  rw [bigSep_tasks (F := F) (fun i => iprop(iBlkPts m d i ∗ xShPts m d i ∗ oBlkPts d i (m (oLoc d)))),
    bigSep_tasks (F := F) (fun i => iprop(iBlkPts m d i ∗ xShPts m d i ∗ oBlkPts d i (G m d))), bigSep_sep', bigSep_sep', bigSep_sep', bigSep_sep']
  unfold iPts xPts oPts iBlkPts xShPts oBlkPts
  rw [iPts_blks, xPts_shares, oPts_blks, oPts_blks]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (iLoc d ↦{fullShare} W main_arg3) ∗ (a4Loc d ↦{fullShare} W main_arg4) ∗ (a5Loc d ↦{fullShare} W main_arg5)
      ∗ (xLoc d ↦{fullShare} W main_arg6) ∗ oLoc d ↦{fullShare} W main_v0) := by
  unfold unscopedBufs
  rw [show (Finset.univ.filter fun b : Ref sig .tc => ¬ b.isScoped) = {main_arg0, main_arg1, main_arg2, main_arg3, main_arg4, main_arg5, main_arg6, main_v0} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ xPts m d ∗ oPts d (G m d)) :=
  bigSep_univ_of_subsingleton (0 : Fin 1)

/-- What @main leaves the claim: the seven arguments at their launch contents and the result at the lookup. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ iPts m d ∗ (a4Loc d ↦{fullShare} m (a4Loc d)) ∗ (a5Loc d ↦{fullShare} m (a5Loc d)) ∗ xPts m d ∗ oPts d (G m d))

/-- @main on device `d`'s TensorCore: the one call, from the index array, the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, H2, Hi, H4, H5, Hx, Ho⟩, -, -⟩, -⟩
  iapply ((K (F := F)).wp_run (D (F := F)) 𝒱 (EH := EH) (P := P m) κ d 0) $$ [Hst Hi Hx Ho H0 H1 H2 H4 H5]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [H0]; · iexact H0
  isplitl [H1]; · iexact H1
  isplitl [H2]; · iexact H2
  isplitl [Hi]; · iexact Hi
  isplitl [H4]; · iexact H4
  isplitl [H5]; · iexact H5
  isplitl [Hx]; · iexact Hx
  iexact Ho

def fq (d : Dev nD) (s' : Phys nD τ sig (Elt F)) : Prop :=
  s'.mem.mem (oLoc d) = G m d ∧ s'.mem.mem (a0Loc d) = m (a0Loc d) ∧ s'.mem.mem (a1Loc d) = m (a1Loc d) ∧ s'.mem.mem (a2Loc d) = m (a2Loc d)
    ∧ s'.mem.mem (iLoc d) = m (iLoc d) ∧ s'.mem.mem (a4Loc d) = m (a4Loc d) ∧ s'.mem.mem (a5Loc d) = m (a5Loc d) ∧ s'.mem.mem (xLoc d) = m (xLoc d)

omit [FloatOps F] in
/-- An array held whole is what the memory holds there. -/
theorem agree_keep (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Hi, H4, H5, Hx, Ho⟩, HSI⟩
  ihave H := (agree_keep (F := F) s' _ _) $$ [H0 HSI]; · isplitl [H0] <;> iassumption
  icases H with ⟨%h0, HSI⟩
  ihave H := (agree_keep (F := F) s' _ _) $$ [H1 HSI]; · isplitl [H1] <;> iassumption
  icases H with ⟨%h1, HSI⟩
  ihave H := (agree_keep (F := F) s' _ _) $$ [H2 HSI]; · isplitl [H2] <;> iassumption
  icases H with ⟨%h2, HSI⟩
  ihave H := (agree_keep (F := F) s' _ _) $$ [Hi HSI]; · isplitl [Hi] <;> iassumption
  icases H with ⟨%h3, HSI⟩
  ihave H := (agree_keep (F := F) s' _ _) $$ [H4 HSI]; · isplitl [H4] <;> iassumption
  icases H with ⟨%h4, HSI⟩
  ihave H := (agree_keep (F := F) s' _ _) $$ [H5 HSI]; · isplitl [H5] <;> iassumption
  icases H with ⟨%h5, HSI⟩
  ihave H := (agree_keep (F := F) s' _ _) $$ [Hx HSI]; · isplitl [Hx] <;> iassumption
  icases H with ⟨%h6, HSI⟩
  ihave H := (agree_keep (F := F) s' _ _) $$ [Ho HSI]; · isplitl [Ho] <;> iassumption
  icases H with ⟨%h7, -⟩
  ipureintro; exact ⟨h7, h0, h1, h2, h3, h4, h5, h6⟩

/-! ## The program's run -/

def QC : PUnit × MemSt nD τ sig (Elt F) → Prop := fun r => ∀ c : Dev nD,
  r.2.mem (oLoc c) = G m c ∧ r.2.mem (a0Loc c) = m (a0Loc c) ∧ r.2.mem (a1Loc c) = m (a1Loc c) ∧ r.2.mem (a2Loc c) = m (a2Loc c)
    ∧ r.2.mem (iLoc c) = m (iLoc c) ∧ r.2.mem (a4Loc c) = m (a4Loc c) ∧ r.2.mem (a5Loc c) = m (a5Loc c) ∧ r.2.mem (xLoc c) = m (xLoc c)

/-- Every weakly fair execution of the device's threads from `m` ends, nothing faulting, with the result array at the
    lookup and every argument array unchanged, when every index word is a position of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.lean ====
/-
  The kernel's run, read at any float instance. Sixteen vector subcores of one SparseCore each take one block of 256 consecutive
  positions: a subcore copies its 256 index words from the index array into a scratch list, gathers the table's
  entries at the positions the list names into a second scratch, and copies that scratch out to its block of the
  result. The table is only read, so every subcore holds a sixteenth share of it; the index array and the result are
  cut into the sixteen blocks. What the run leaves: every argument array as it was, and the result array equal,
  entry by entry, to the table read at the index array's words (`Cert.Spec.lookup`), provided every index word is
  below the table's length, which is what makes each gathered position a position of the table.
-/
import proofs.«209424_g45870250721293_cont_8to1_b_920_9_alg».proof.Kernel
import proofs.«209424_g45870250721293_cont_8to1_b_920_9_alg».proof.Proof.Gen.Kernel
import proofs.«209424_g45870250721293_cont_8to1_b_920_9_alg».proof.Proof.Gen.Kernel.Skeleton
import proofs.«209424_g45870250721293_cont_8to1_b_920_9_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array, the table and the result, as locations of device `d`; then the five arguments the kernel never touches. -/
abbrev iLoc (d : Dev nD) : Loc nD τ sig := (SparseCore.T d).loc main_arg3
abbrev xLoc (d : Dev nD) : Loc nD τ sig := (SparseCore.T d).loc main_arg6
abbrev oLoc (d : Dev nD) : Loc nD τ sig := (SparseCore.T d).loc main_v0
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a4Loc (d : Dev nD) : Loc nD τ sig := (SparseCore.T d).loc main_arg4
abbrev a5Loc (d : Dev nD) : Loc nD τ sig := (SparseCore.T d).loc main_arg5

local notation "iV" => (Memref.whole Cert.Kernel.main_arg3_scv : Memref Cert.Kernel.sig Kind.scVector Space.hbm Cert.Kernel.S4096 EltTy.i32)
local notation "xV" => (Memref.whole Cert.Kernel.main_arg6_scv : Memref Cert.Kernel.sig Kind.scVector Space.hbm Cert.Kernel.S100000 EltTy.f32)
local notation "oV" => (Memref.whole Cert.Kernel.main_v0_scv : Memref Cert.Kernel.sig Kind.scVector Space.hbm Cert.Kernel.S4096 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256 EltTy.f32)

/-- The result the kernel is to leave: the table read at the index array's words. -/
def G (d : Dev nD) : Buf (Elt F) (oLoc d) := Cert.Spec.lookup (m (xLoc d)) (m (iLoc d))

/-- What the proof asks of the launch memory: every index word is a position of the table. -/
def PreOK : Prop := ∀ (d : Dev nD) (j : S4096.Idx), (m (iLoc d) j).toNat < 100000

theorem bdiv : 16 ∣ S4096.size 0 := ⟨256, rfl⟩
/-- Block `i` of the 4096 positions: positions `256 i … 256 i + 255`. -/
abbrev blk (i : Fin 16) : Rect S4096 := Rect.part (s := S4096) (a₀ := 0) bdiv i
abbrev iBlkSet (i : Fin 16) : Finset S4096.Idx := ((iV).view.slice (blk i)).set
abbrev oBlkSet (i : Fin 16) : Finset S4096.Idx := ((oV).view.slice (blk i)).set

/-- Subcore `i`'s share of the table: the full share cut into sixteen pieces. -/
abbrev xq (i : Fin 16) : PosShare TreeShare := pieceOf fullShare 16 (by decide) i

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iBlkPts (d : Dev nD) (i : Fin 16) : sProp 𝕄 := iLoc d ↦[iBlkSet i]{fullShare} m (iLoc d)
abbrev xShPts (d : Dev nD) (i : Fin 16) : sProp 𝕄 := xLoc d ↦{xq i} m (xLoc d)
abbrev oBlkPts (d : Dev nD) (i : Fin 16) (f : Buf (Elt F) (oLoc d)) : sProp 𝕄 := oLoc d ↦[oBlkSet i]{fullShare} f

/-- The one call takes the index array, the table and the result whole; each subcore its block of the index array, its
    share of the table and its block of the result, and brings them back, the result's block holding the looked-up entries. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (G m d))
  go := fun q d _ i => match q with
    | 0 => iprop(iBlkPts m d (Fin.cast nSub_zero i) ∗ xShPts m d (Fin.cast nSub_zero i) ∗ oBlkPts d (Fin.cast nSub_zero i) (m (oLoc d)))
  td := fun q d _ i => match q with
    | 0 => iprop(iBlkPts m d (Fin.cast nSub_zero i) ∗ xShPts m d (Fin.cast nSub_zero i) ∗ oBlkPts d (Fin.cast nSub_zero i) (G m d))
  x := fun _ _ => iprop(emp)

instance P_storable : (P (F := F) m).IsStorable where
  st q d _ := match q with
    | 0 => (inferInstance : BI.Storable (upEmb : UEmb _ 𝕄) iprop(iPts m d ∗ xPts m d ∗ oPts d (m (oLoc d))))
  dn q d _ := match q with
    | 0 => (inferInstance : BI.Storable (upEmb : UEmb _ 𝕄) iprop(iPts m d ∗ xPts m d ∗ oPts d (G m d)))
  go q d _ i := match q with
    | 0 => (inferInstance : BI.Storable (upEmb : UEmb _ 𝕄)
      iprop(iBlkPts m d (Fin.cast nSub_zero i) ∗ xShPts m d (Fin.cast nSub_zero i) ∗ oBlkPts d (Fin.cast nSub_zero i) (m (oLoc d))))
  td q d _ i := match q with
    | 0 => (inferInstance : BI.Storable (upEmb : UEmb _ 𝕄)
      iprop(iBlkPts m d (Fin.cast nSub_zero i) ∗ xShPts m d (Fin.cast nSub_zero i) ∗ oBlkPts d (Fin.cast nSub_zero i) (G m d)))

/-! ## One subcore's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The block as the subcore at `L` addresses it: 256 positions from the offset the body computes. -/
abbrev blkK (L : grid0.Coords) : Rect S4096 := Rect.unit (s := S4096) (k0_off1 L) S256.size (k0_off1_inb L)
abbrev iBlkK (L : grid0.Coords) : Memref sig .scVector .hbm S256 .i32 := (iV).slice (blkK L) (fun _ => rfl)
abbrev oBlkK (L : grid0.Coords) : Memref sig .scVector .hbm S256 .f32 := (oV).slice (blkK L) (fun _ => rfl)
abbrev xAllK : Memref sig .scVector .hbm S100000 .f32 := (xV).slice (Rect.unit (s := S100000) ![0] S100000.size inb_S100000_S100000_0) (fun _ => rfl)

omit [FloatOps F] in
/-- The body's offset `256·(L 1) + 256·(L 0)` is block `L 1`'s start: there is one SparseCore in the grid, `L 0 = 0`. -/
theorem blkK_eq : blkK L = blk (jL L) := by
  have h0 : (L 0).val = 0 := by have := (L 0).isLt; simpa [grid0] using this
  unfold blkK blk Rect.part Rect.block
  congr 1 <;> funext a
  · rw [k0_off1_eq]
    match a with
    | 0 => simp [Shape.partIx, Shape.partSize, h0]; omega
  · match a with
    | 0 => simp [Shape.partSize]

omit [FloatOps F] in
theorem set_iBlkK : (iBlkK L).view.set = iBlkSet (jL L) := by
  show ((iV).view.slice (blkK L)).set = ((iV).view.slice (blk (jL L))).set
  rw [blkK_eq]
omit [FloatOps F] in
theorem set_oBlkK : (oBlkK L).view.set = oBlkSet (jL L) := by
  show ((oV).view.slice (blkK L)).set = ((oV).view.slice (blk (jL L))).set
  rw [blkK_eq]

omit [FloatOps F] in
theorem pts_iBlkK (f : Buf (Elt F) (iLoc d)) :
    ((iBlkK L).view.loc (V d (cV L) (jV L)) ↦[(iBlkK L).view.set]{fullShare} f : sProp 𝕄) = iLoc d ↦[iBlkSet (jL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlkSet (jL L)]{fullShare} f := by
  rw [set_oBlkK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three DMA semaphores of a subcore: the index fetch's, the gather's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The positions the gather reads are positions of the table: what the index fetch left in the scratch list is the
    subcore's block of the index array, each word below the table's length. -/
theorem idx_in_table (hpre : PreOK m) (fs : Buf (Elt F) ((V d (cV L) (jV L)).loc cc0_scratch0)) (pay : S256.Idx → Elt F .i32)
    (hpay : pay = (iBlkK L).view.read (Elt F) (m (iLoc d))) :
    ∀ x, ((sV).view.read (Elt F) (View.write (Elt F) (sV).view fs pay Finset.univ) x).toNat < S100000.size gathers_S100000_S256.axis := by
  subst hpay; intro x
  rw [View.read_write_univ]
  exact hpre d ((iBlkK L).view.emb x)

/-- The row of the table that entry `y` of the scratch list names is the index array's word at position `y` of the block. -/
theorem rows_val (fs : Buf (Elt F) ((V d (cV L) (jV L)).loc cc0_scratch0))
    (hn : S256.numel = S256.size gathers_S100000_S256.axis')
    (hin : ∀ x, ((sV).view.read (Elt F) (View.write (Elt F) (sV).view fs (ReadAs.same.apply ((iBlkK L).view.read (Elt F) (m (iLoc d)))) Finset.univ) x).toNat
      < S100000.size gathers_S100000_S256.axis) (y : S256.Idx) :
    (SparseCore.rows ((sV).view.read (Elt F) (View.write (Elt F) (sV).view fs (ReadAs.same.apply ((iBlkK L).view.read (Elt F) (m (iLoc d)))) Finset.univ))
        hn hin (y gathers_S100000_S256.axis')).val
      = (m (iLoc d) ((iBlkK L).view.emb y)).toNat := by
  have e : S256.rowMajor.symm ((y gathers_S100000_S256.axis').cast hn.symm) = y := by
    rw [Equiv.symm_apply_eq]; apply Fin.ext; rw [Shape.rowMajor_val_one]; rfl
  unfold SparseCore.rows
  show (View.read (Elt F) (sV).view _ (S256.rowMajor.symm ((y gathers_S100000_S256.axis').cast hn.symm))).toNat = _
  rw [View.read_write_univ, e]
  rfl

/-- What the write-out leaves in the subcore's block of the result: at every position of the block, the table's entry
    at the position the index array's word there names. The block is written whole with the gathered scratch; entry `y`
    of the gathered scratch is the table at the row entry `y` of the list names; that row is the index word (`hrows`),
    which the precondition bounds by the table's length. -/
theorem out_block_val (hpre : PreOK m) (fr : Buf (Elt F) ((V d (cV L) (jV L)).loc cc0_scratch1))
    (rowsF : Fin (S256.size gathers_S100000_S256.axis') → Fin (S100000.size gathers_S100000_S256.axis))
    (hrows : ∀ y : S256.Idx, (rowsF (y gathers_S100000_S256.axis')).val = (m (iLoc d) ((iBlkK L).view.emb y)).toNat) :
    ∀ i ∈ oBlkSet (jL L),
      (oBlkK L).view.writes (Elt F) (m (oLoc d))
        [⟨Rect.whole S256, ReadAs.same.apply ((rV).view.read (Elt F) ((rV).view.writes (Elt F) fr
          [⟨Rect.whole S256, SparseCore.gatherPayload gathers_S100000_S256 ((xAllK).view.read (Elt F) (m (xLoc d))) rowsF⟩]))⟩] i
        = G m d i := by
  intro i hi
  rw [← set_oBlkK] at hi
  obtain ⟨y, -, rfl⟩ := Finset.mem_map.mp hi
  refine (congrFun (View.read_writes_whole (oBlkK L).view (m (oLoc d)) _) y).trans ?_
  refine (congrFun (View.read_writes_whole (rV).view fr _) y).trans ?_
  unfold SparseCore.gatherPayload G Cert.Spec.lookup
  show m (xLoc d) ((xAllK).view.emb (gathers_S100000_S256.idx rowsF y)) = m (xLoc d) (Cert.Spec.pos (m (iLoc d) ((iBlkK L).view.emb y)))
  refine congrArg (m (xLoc d)) (Cert.Spec.pos_eq_of_val _ (hpre d _) _ ?_)
  show 0 + 1 * (gathers_S100000_S256.idx rowsF y gathers_S100000_S256.axis).val = _
  rw [Nat.zero_add, Nat.one_mul, Shape.Gathers.idx_axis]
  exact hrows y

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iBlkPts m d (jL L) ∗ xShPts m d (jL L) ∗ oBlkPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scoped0 cc0_scoped1)
          fun _ => iprop((iBlkPts m d (jL L) ∗ xShPts m d (jL L) ∗ oBlkPts d (jL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  iintro ⟨#Hlv, -, ⟨Hi, Hx, Ho⟩, Hsb, Hss, HO⟩
  ihave Hss1 := (Entails.of_eq (SparseCore.Cfg.scopedSems0_V (Val := Elt F) d (cV L) (jV L))) $$ Hss
  ihave Hss2 := (Entails.of_eq (ownSems0_V (F := F) d L)) $$ Hss1
  icases Hss2 with ⟨HsA, HsB, HsC, Hsrest⟩
  ihave Hsb1 := (Entails.of_eq ((K (F := F)).scopedBufs_V (Val := Elt F) hF d (cV L) (jV L))) $$ Hsb
  ihave Hsb2 := (Entails.of_eq (ownBufs_V (F := F) d L)) $$ Hsb1
  icases Hsb2 with ⟨⟨%fs, Hs⟩, ⟨%fr, Hr⟩, Hbrest⟩
  ihave Hmw := ((K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hin := idx_in_table (F := F) m d L hpre fs (tile_body.sl.dma0 m d L) rfl
  sl_exec
  sl_step
  have hval : ∀ i ∈ oBlkSet (jL L),
      (oBlkK L).view.writes (Elt F) (m (oLoc d)) [⟨Rect.whole S256, tile_body.sl.dma0_1 m d L fs fr hin⟩] i = G m d i :=
    out_block_val (F := F) m d L hpre fr _ (rows_val (F := F) m d L fs _ hin)
  isplitl [Hi' Hx' Ho']
  · isplitl [Hi']; · iapply (Entails.of_eq (pts_iBlkK (F := F) d L _)); iexact Hi'
    isplitl [Hx']; · iexact Hx'
    ihave Ho2 := (Entails.of_eq (pts_oBlkK (F := F) d L _)) $$ Ho'
    iapply (Entails.of_eq (pointsTo_congr hval)); iexact Ho2
  isplitl [Hs' Hr' Hbrest]
  · iapply (Entails.of_eq ((K (F := F)).scopedBufs_V (Val := Elt F) hF d (cV L) (jV L)).symm)
    iapply (Entails.of_eq (ownBufs_V (F := F) d L).symm)
    isplitl [Hs']; · iexists _; iexact Hs'
    isplitl [Hr']; · iexists _; iexact Hr'
    iexact Hbrest
  isplitl [HsA HsB HsC Hsrest]
  · iapply (Entails.of_eq (SparseCore.Cfg.scopedSems0_V (Val := Elt F) d (cV L) (jV L)).symm)
    iapply (Entails.of_eq (ownSems0_V (F := F) d L).symm)
    isplitl [HsA]; · iexact HsA
    isplitl [HsB]; · iexact HsB
    isplitl [HsC]; · iexact HsC
    iexact Hsrest
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The blocks split and join; the shares of the table -/

omit [FloatOps F] in
theorem iBlkSet_eq (i : Fin 16) : iBlkSet i = (blk i).set := by
  show ((View.whole (main_arg3_scv : Ref sig .scVector)).slice (blk i)).set = _
  rw [View.set_slice]; exact Finset.map_refl
omit [FloatOps F] in
theorem oBlkSet_eq (i : Fin 16) : oBlkSet i = (blk i).set := by
  show ((View.whole (main_v0_scv : Ref sig .scVector)).slice (blk i)).set = _
  rw [View.set_slice]; exact Finset.map_refl
omit [FloatOps F] in
theorem iblks_disjoint : ∀ i ∈ (Finset.univ : Finset (Fin 16)), ∀ j ∈ (Finset.univ : Finset (Fin 16)), i ≠ j → Disjoint (iBlkSet i) (iBlkSet j) :=
  fun i _ j _ h => by rw [iBlkSet_eq, iBlkSet_eq]; exact Rect.part_disjoint bdiv h
omit [FloatOps F] in
theorem oblks_disjoint : ∀ i ∈ (Finset.univ : Finset (Fin 16)), ∀ j ∈ (Finset.univ : Finset (Fin 16)), i ≠ j → Disjoint (oBlkSet i) (oBlkSet j) :=
  fun i _ j _ h => by rw [oBlkSet_eq, oBlkSet_eq]; exact Rect.part_disjoint bdiv h
omit [FloatOps F] in
theorem iblks_cover : (Finset.univ : Finset (Fin 16)).biUnion iBlkSet = Finset.univ :=
  (Finset.biUnion_congr rfl fun i _ => iBlkSet_eq i).trans (Rect.biUnion_part bdiv)
omit [FloatOps F] in
theorem oblks_cover : (Finset.univ : Finset (Fin 16)).biUnion oBlkSet = Finset.univ :=
  (Finset.biUnion_congr rfl fun i _ => oBlkSet_eq i).trans (Rect.biUnion_part bdiv)

omit [FloatOps F] in
theorem iPts_blks (d : Dev nD) (f : Buf (Elt F) (iLoc d)) :
    (iLoc d ↦{fullShare} f : sProp 𝕄) = bigSep Finset.univ fun i : Fin 16 => iLoc d ↦[iBlkSet i]{fullShare} f := by
  rw [← pointsTo_biUnion Finset.univ (ℓ := iLoc d) iBlkSet iblks_disjoint, iblks_cover]; try rfl
omit [FloatOps F] in
theorem oPts_blks (d : Dev nD) (f : Buf (Elt F) (oLoc d)) :
    (oLoc d ↦{fullShare} f : sProp 𝕄) = bigSep Finset.univ fun i : Fin 16 => oLoc d ↦[oBlkSet i]{fullShare} f := by
  rw [← pointsTo_biUnion Finset.univ (ℓ := oLoc d) oBlkSet oblks_disjoint, oblks_cover]; try rfl
omit [FloatOps F] in
theorem xPts_shares (d : Dev nD) (f : Buf (Elt F) (xLoc d)) :
    (xLoc d ↦{fullShare} f : sProp 𝕄) = bigSep Finset.univ fun i : Fin 16 => xLoc d ↦{xq i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iBlkPts m d (Fin.cast nSub_zero i) ∗ xShPts m d (Fin.cast nSub_zero i) ∗ oBlkPts d (Fin.cast nSub_zero i) (m (oLoc d))))
      ∗ ((bigSep Finset.univ fun i : Fin ((K (F := F)).nSub 0) =>
          iprop(iBlkPts m d (Fin.cast nSub_zero i) ∗ xShPts m d (Fin.cast nSub_zero i) ∗ oBlkPts d (Fin.cast nSub_zero i) (G m d)))
          -∗ iprop(iPts m d ∗ xPts m d ∗ oPts d (G m d))))
  rw [bigSep_tasks (F := F) (fun i => iprop(iBlkPts m d i ∗ xShPts m d i ∗ oBlkPts d i (m (oLoc d)))),
    bigSep_tasks (F := F) (fun i => iprop(iBlkPts m d i ∗ xShPts m d i ∗ oBlkPts d i (G m d))), bigSep_sep', bigSep_sep', bigSep_sep', bigSep_sep']
  unfold iPts xPts oPts iBlkPts xShPts oBlkPts
  rw [iPts_blks, xPts_shares, oPts_blks, oPts_blks]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (iLoc d ↦{fullShare} W main_arg3) ∗ (a4Loc d ↦{fullShare} W main_arg4) ∗ (a5Loc d ↦{fullShare} W main_arg5)
      ∗ (xLoc d ↦{fullShare} W main_arg6) ∗ oLoc d ↦{fullShare} W main_v0) := by
  unfold unscopedBufs
  rw [show (Finset.univ.filter fun b : Ref sig .tc => ¬ b.isScoped) = {main_arg0, main_arg1, main_arg2, main_arg3, main_arg4, main_arg5, main_arg6, main_v0} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ xPts m d ∗ oPts d (G m d)) :=
  bigSep_univ_of_subsingleton (0 : Fin 1)

/-- What @main leaves the claim: the seven arguments at their launch contents and the result at the lookup. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ iPts m d ∗ (a4Loc d ↦{fullShare} m (a4Loc d)) ∗ (a5Loc d ↦{fullShare} m (a5Loc d)) ∗ xPts m d ∗ oPts d (G m d))

/-- @main on device `d`'s TensorCore: the one call, from the index array, the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, H2, Hi, H4, H5, Hx, Ho⟩, -, -⟩, -⟩
  iapply ((K (F := F)).wp_run (D (F := F)) 𝒱 (EH := EH) (P := P m) κ d 0) $$ [Hst Hi Hx Ho H0 H1 H2 H4 H5]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [H0]; · iexact H0
  isplitl [H1]; · iexact H1
  isplitl [H2]; · iexact H2
  isplitl [Hi]; · iexact Hi
  isplitl [H4]; · iexact H4
  isplitl [H5]; · iexact H5
  isplitl [Hx]; · iexact Hx
  iexact Ho

def fq (d : Dev nD) (s' : Phys nD τ sig (Elt F)) : Prop :=
  s'.mem.mem (oLoc d) = G m d ∧ s'.mem.mem (a0Loc d) = m (a0Loc d) ∧ s'.mem.mem (a1Loc d) = m (a1Loc d) ∧ s'.mem.mem (a2Loc d) = m (a2Loc d)
    ∧ s'.mem.mem (iLoc d) = m (iLoc d) ∧ s'.mem.mem (a4Loc d) = m (a4Loc d) ∧ s'.mem.mem (a5Loc d) = m (a5Loc d) ∧ s'.mem.mem (xLoc d) = m (xLoc d)

omit [FloatOps F] in
/-- An array held whole is what the memory holds there. -/
theorem agree_keep (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Hi, H4, H5, Hx, Ho⟩, HSI⟩
  ihave H := (agree_keep (F := F) s' _ _) $$ [H0 HSI]; · isplitl [H0] <;> iassumption
  icases H with ⟨%h0, HSI⟩
  ihave H := (agree_keep (F := F) s' _ _) $$ [H1 HSI]; · isplitl [H1] <;> iassumption
  icases H with ⟨%h1, HSI⟩
  ihave H := (agree_keep (F := F) s' _ _) $$ [H2 HSI]; · isplitl [H2] <;> iassumption
  icases H with ⟨%h2, HSI⟩
  ihave H := (agree_keep (F := F) s' _ _) $$ [Hi HSI]; · isplitl [Hi] <;> iassumption
  icases H with ⟨%h3, HSI⟩
  ihave H := (agree_keep (F := F) s' _ _) $$ [H4 HSI]; · isplitl [H4] <;> iassumption
  icases H with ⟨%h4, HSI⟩
  ihave H := (agree_keep (F := F) s' _ _) $$ [H5 HSI]; · isplitl [H5] <;> iassumption
  icases H with ⟨%h5, HSI⟩
  ihave H := (agree_keep (F := F) s' _ _) $$ [Hx HSI]; · isplitl [Hx] <;> iassumption
  icases H with ⟨%h6, HSI⟩
  ihave H := (agree_keep (F := F) s' _ _) $$ [Ho HSI]; · isplitl [Ho] <;> iassumption
  icases H with ⟨%h7, -⟩
  ipureintro; exact ⟨h7, h0, h1, h2, h3, h4, h5, h6⟩

/-! ## The program's run -/

def QC : PUnit × MemSt nD τ sig (Elt F) → Prop := fun r => ∀ c : Dev nD,
  r.2.mem (oLoc c) = G m c ∧ r.2.mem (a0Loc c) = m (a0Loc c) ∧ r.2.mem (a1Loc c) = m (a1Loc c) ∧ r.2.mem (a2Loc c) = m (a2Loc c)
    ∧ r.2.mem (iLoc c) = m (iLoc c) ∧ r.2.mem (a4Loc c) = m (a4Loc c) ∧ r.2.mem (a5Loc c) = m (a5Loc c) ∧ r.2.mem (xLoc c) = m (xLoc c)

/-- Every weakly fair execution of the device's threads from `m` ends, nothing faulting, with the result array at the
    lookup and every argument array unchanged, when every index word is a position of the table. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.PreRange.lean ====
/-
  What the input-domain predicate grants about the index array: every index word, read as a natural number, is below
  the table's length 100000. The predicate is a conjunction of "all elements satisfy …" tests; the one about the index
  array says that each word, read as a signed integer, lies in [0, 99999]. A 32-bit word whose signed reading is
  non-negative has the same unsigned reading, so the bound carries over.
-/
import proofs.«209424_g45870250721293_cont_8to1_b_920_9_alg».proof.Pre_input_domain
import proofs.«209424_g45870250721293_cont_8to1_b_920_9_alg».proof.Proof.Gen.Pre_input_domain
import Idealize.ShloMosaic.Lib.ReduceAll
import Idealize.ShloMosaic.Lib.ValueIdx

namespace Cert.PreRange

open Idealize.ShloMosaic Cert.Pre_input_domain

/-- The rank-0 shape has exactly one index. -/
instance subsingleton_scalarIdx : Subsingleton S_.Idx := ⟨fun _ _ => funext fun d => d.elim0⟩

/-- A 32-bit word whose signed reading lies between the signed readings of the words 0 and 99999 has an unsigned
    reading below 100000. -/
theorem toNat_lt_of_signed_range (w : BitVec 32) (h0 : (0#32 : BitVec 32).toInt ≤ w.toInt)
    (h1 : w.toInt ≤ (99999#32 : BitVec 32).toInt) : w.toNat < 100000 := by
  have e0 : (0#32 : BitVec 32).toInt = 0 := by decide
  have e1 : (99999#32 : BitVec 32).toInt = 99999 := by decide
  rw [e0] at h0
  rw [e1] at h1
  have hc := BitVec.toInt_eq_toNat_cond w
  split at hc <;> omega

/-- Under the input-domain predicate every index word is below 100000. -/
theorem decision_lt {F : FTy → Type} [FloatOps F] (a0 : IVec S4096 32) (a1 a2 : IVec S4096x50 32)
    (a3 a4 a5 : IVec S4096 32) (a6 : FVec F S100000 .f32)
    (h : Cert.Pre_input_domain.fn (F := F) a0 a1 a2 a3 a4 a5 a6 = fun _ => 1#1) : ∀ j, (a3 j).toNat < 100000 := by
  intro j
  -- the predicate's one element
  have h0 := congrFun h ValueIdx.ix0
  dsimp only [fn, fn_part1, fn_part2] at h0
  -- the outer conjunctions: ((… ∧ [index array in range]) ∧ …) ∧ …
  have h30 := (IntOp.andi_eq_one.1 (IntOp.andi_eq_one.1 (IntOp.andi_eq_one.1 h0).1).1).2
  -- "all elements" read at element j
  have hj := Host.reduce_andi_all _ _ _ _ _ h30 j
  obtain ⟨hge, hle⟩ := IntOp.andi_eq_one.1 hj
  exact toNat_lt_of_signed_range (a3 j) (IntOp.cmpi_sge.1 hge) (IntOp.cmpi_sle.1 hle)

end Cert.PreRange
-- ==== Proof.RefTerm.lean ====
/-
  The function the reference program computes, as one term of its two live arguments (the table and the index array),
  named piece by piece after the source: the index words clamped into [0, 99999]; the table read at the clamped
  words — a negative word first wrapped by the table's length, the wrapped words laid out as a column of start indices,
  the read guarded by an in-bounds test that fills with a NaN —; and the outer guard "0 ≤ word < 100000" that fills
  with zero. Stated for every float instance: the operations are those of the program, composed in its order.
-/
import proofs.«209424_g45870250721293_cont_8to1_b_920_9_alg».proof.ReferenceIdeal
import proofs.«209424_g45870250721293_cont_8to1_b_920_9_alg».proof.Proof.Gen.ReferenceIdeal

noncomputable section

namespace Cert.RefSide

open Cert.ReferenceIdeal Cert.ReferenceIdeal.Gen Idealize.ShloMosaic

variable {F : FTy → Type} [FloatOps F]

/-- The index words clamped, as signed integers, into [0, 99999]: the minimum with 99999 of the maximum with 0. -/
def clipped (a : IVec S4096 32) : IVec S4096 32 :=
  minsi (broadcastInDim S4096 ![] bcast_S_S4096 (id (constantI S_ 32 99999#32)))
    (maxsi (broadcastInDim S4096 ![] bcast_S_S4096 (id (constantI S_ 32 0#32))) a)

/-- The read's index wrap: a negative word has the table's length added, any other is kept. -/
def wrapped (s : IVec S4096 32) : IVec S4096 32 :=
  select (cmpi .slt s (broadcastInDim S4096 ![] bcast_S_S4096 (constantI S_ 32 0#32)))
    (addi s (broadcastInDim S4096 ![] bcast_S_S4096 (constantI S_ 32 100000#32))) s

/-- The start indices of the table read: the wrapped words laid out as a column. -/
def startIdx (s : IVec S4096 32) : IVec S4096x1 32 :=
  broadcastInDim S4096x1 ![0] bcast_S4096_S4096x1_0 (wrapped s)

/-- The read's in-bounds test: per row, "0 ≤ start index ≤ 99999" over the row's one column. -/
def inBounds (v : IVec S4096x1 32) : IVec S4096 1 :=
  Host.reduce IntOp.andi
    (andi (cmpi .sge v (broadcastInDim S4096x1 ![] bcast_S_S4096x1 (constantI S_ 32 0#32)))
      (cmpi .sle v (broadcastInDim S4096x1 ![0, 1] bcast_S1x1_S4096x1_0_1
        (broadcastInDim S1x1 ![1] bcast_S1_S1x1_1 (constantI S1 32 99999#32)))))
    (constantI S_ 1 1#1) reducesTo_S4096x1_S4096_d1 h_S_

/-- The table read at the words `s`: the gathered entries where the start index is in bounds, a NaN elsewhere. -/
def taken (tbl : FVec F S100000 .f32) (s : IVec S4096 32) : FVec F S4096 .f32 :=
  select (inBounds (startIdx s)) (Host.gather gather_S100000_S4096x1_S4096_n_0_n_n_0_1_1 tbl (startIdx s))
    (broadcastInDim S4096 ![] bcast_S_S4096 (constant S_ .f32 0x7FC00000#32))

/-- The outer guard: "0 ≤ word < 100000", signed. -/
def valid (a : IVec S4096 32) : IVec S4096 1 :=
  andi (cmpi .sge a (broadcastInDim S4096 ![] bcast_S_S4096 (constantI S_ 32 0#32)))
    (cmpi .slt a (broadcastInDim S4096 ![] bcast_S_S4096 (constantI S_ 32 100000#32)))

/-- The program's result: the table read at the clamped words where the guard holds, zero elsewhere. -/
def result (tbl : FVec F S100000 .f32) (a : IVec S4096 32) : FVec F S4096 .f32 :=
  select (valid a) (taken tbl (clipped a)) (broadcastInDim S4096 ![] bcast_S_S4096 (constant S_ .f32 0x00000000#32))

end Cert.RefSide

end
-- ==== Proof.RefOps.lean ====
/-
  The reference program's run, read back. With the calls of its four module-local functions replaced by their bodies
  (the clamp's six operations, the table read's twenty-two with the inner select among them, the outer select), @main is
  a straight line of forty host operations. Every weakly fair execution of it terminates; the result buffer ends at the
  operations' composed function of the table and the index array (`result`), and the seven arguments end unchanged.
  Stated for every float instance.
-/
import proofs.«209424_g45870250721293_cont_8to1_b_920_9_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's forty operations in order, each call's operations at its place over that call's buffers. -/
abbrev ops : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg3 main_v0 main_v1 (cmpi .sge : (⟨S4096, .i32⟩ : BufTy).Contents (Elt F) → (⟨S4096, .i32⟩ : BufTy).Contents (Elt F) → (⟨S4096, .i1⟩ : BufTy).Contents (Elt F)),
    nullary main_c_0 (constantI S_ 32 100000#32),
    unary main_c_0 main_v2 (broadcastInDim S4096 ![] bcast_S_S4096 : (⟨S_, .i32⟩ : BufTy).Contents (Elt F) → (⟨S4096, .i32⟩ : BufTy).Contents (Elt F)),
    binary main_arg3 main_v2 main_v3 (cmpi .slt : (⟨S4096, .i32⟩ : BufTy).Contents (Elt F) → (⟨S4096, .i32⟩ : BufTy).Contents (Elt F) → (⟨S4096, .i1⟩ : BufTy).Contents (Elt F)),
    binary main_v1 main_v3 main_v4 (andi : (⟨S4096, .i1⟩ : BufTy).Contents (Elt F) → (⟨S4096, .i1⟩ : BufTy).Contents (Elt F) → (⟨S4096, .i1⟩ : BufTy).Contents (Elt F)),
    nullary main_c_1 (constantI S_ 32 0#32),
    nullary main_c_2 (constantI S_ 32 99999#32),
    -- the clamp
    TRef.unary (.of main_c_1) main_call0.v0 id,
    TRef.unary main_call0.v0 main_call0.v1 (broadcastInDim S4096 ![] bcast_S_S4096),
    TRef.binary main_call0.v1 (.of main_arg3) main_call0.v2 maxsi,
    TRef.unary (.of main_c_2) main_call0.v3 id,
    TRef.unary main_call0.v3 main_call0.v4 (broadcastInDim S4096 ![] bcast_S_S4096),
    TRef.binary main_call0.v4 main_call0.v2 main_call0.v5 minsi,
    -- the table read
    TRef.nullary main_call1.c (constantI S_ 32 0#32),
    TRef.unary main_call1.c main_call1.v0 (broadcastInDim S4096 ![] bcast_S_S4096),
    TRef.binary (.of main_v5) main_call1.v0 main_call1.v1 (cmpi .slt),
    TRef.nullary main_call1.c_0 (constantI S_ 32 100000#32),
    TRef.unary main_call1.c_0 main_call1.v2 (broadcastInDim S4096 ![] bcast_S_S4096),
    TRef.binary (.of main_v5) main_call1.v2 main_call1.v3 addi,
    TRef.ternary main_call1.v1 main_call1.v3 (.of main_v5) main_call1.call0.v0 select,
    TRef.unary main_call1.call0.v0 main_call1.v5 (broadcastInDim S4096x1 ![0] bcast_S4096_S4096x1_0),
    TRef.nullary main_call1.c_1 (constantI S1 32 99999#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg6) main_call1.v5 main_call1.v13 (fun x i => Host.gather gather_S100000_S4096x1_S4096_n_0_n_n_0_1_1 x i),
    TRef.nullary main_call1.cst (constant S_ .f32 0x7FC00000#32),
    TRef.unary main_call1.cst main_call1.v14 (broadcastInDim S4096 ![] bcast_S_S4096),
    TRef.ternary main_call1.v12 main_call1.v13 main_call1.v14 main_call1.v15 select,
    -- the outer select
    nullary main_cst (constant S_ .f32 0x00000000#32),
    unary main_cst main_v7 (broadcastInDim S4096 ![] bcast_S_S4096 : (⟨S_, .f32⟩ : BufTy).Contents (Elt F) → (⟨S4096, .f32⟩ : BufTy).Contents (Elt F)),
    TRef.ternary (.of main_v4) (.of main_v6) (.of main_v7) main_call2.v0 select ]

-- forty binds re-associated: the rewrite under the chain recurses once per statement
set_option maxRecDepth 4096 in
/-- @main is that straight line: the functions' definitions unfolded at their calls, both sides are one chain of steps
    once sequencing is re-associated. -/
theorem main_eq (c : Dev nD) : main (F := F) c = seq ops := by
  simp only [main, fn_clip.body, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., ternary_bufs_sub ..⟩

/-- Every buffer ends at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves in the result buffer and in the arguments

The fold unrolled, each operation's result is rewritten, at the buffer it writes, to its function's value of its operands'
contents and, at any other buffer, to what was there; what is left is the composed term over the contents of the table and
the index array, up to the typed references' transports: a value written through one and read back through one is the value
(`ofBuf_toBuf`), and the few left at the arguments and constants are the identity at these literal references. The reduction
and the gather are kept folded meanwhile: the equation never looks inside them. -/

/-- A typed reference's transport to its buffer's type and back is the identity. -/
theorem ofBuf_toBuf {T : BufTy} (r : Ref sig .tc) (h1 h1' : r.ty = T) (h2 h2' : r.space ≠ .host) (h3 h3' : r.isScoped = false)
    (v : T.Contents (Elt F)) : (TRef.of r h1 h2 h3).ofBuf ((TRef.of r h1' h2' h3').toBuf v) = v := by
  subst h1
  rfl

attribute [local irreducible] Host.reduce Host.gather in
set_option maxRecDepth 8192 in
theorem out_eq (V : Valuation τ sig (Elt F)) :
    after ops V (Proc.devRef .tc main_v8) = result (V (Proc.devRef .tc main_arg6)) (V (Proc.devRef .tc main_arg3)) := by
  after_results_simp
  simp only [ofBuf_toBuf]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl
theorem arg6_eq (V : Valuation τ sig (Elt F)) : after ops V (main_arg6 : DevRef τ sig) = V (main_arg6 : DevRef τ sig) := by
  simp only [after_cons, after_nil]
  rfl

/-- On every device, for any float values, from any memory with zero counters: every weakly fair execution of @main
    terminates with the result buffer at `result` of the table and the index array, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = result (m ((c.tc : Thread nD τ).loc main_arg6)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v8).trans (out_eq (launchContents m c)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c)),
        (h c main_arg6).trans (arg6_eq (launchContents m c))⟩)
    (run_fold m ρ)

end Cert.RefSide

end
-- ==== Proof.RefValue.lean ====
/-
  The reference's term read at an index. Where the index word is below the table's length 100000 (what the input-domain
  predicate grants), every guard of the reference takes its first branch: read as a signed integer the word is
  non-negative and below 100000, so the outer guard holds; clamping it into [0, 99999] leaves it unchanged; it is not
  negative, so the wrap by the table's length leaves it unchanged; the start index is in bounds, so the NaN fill is not
  taken; and the gather reads the table at the word's own value. Hence the result at `j` is the table's entry at the
  position the `j`-th word names. No float operation is involved, so this holds at every float instance.
-/
import proofs.«209424_g45870250721293_cont_8to1_b_920_9_alg».proof.Proof.RefTerm
import proofs.«209424_g45870250721293_cont_8to1_b_920_9_alg».proof.Proof.Spec
import Idealize.ShloMosaic.Lib.ValueIdx
import Idealize.ShloMosaic.Lib.Affine
import Idealize.ShloMosaic.PureOps.Reduce

noncomputable section

namespace Cert.RefSide

open Cert.ReferenceIdeal Cert.ReferenceIdeal.Gen Idealize.ShloMosaic Idealize.ShloMosaic.ValueIdx

/-! ## Words below 100000, read signed -/

section Words
variable (w : BitVec 32) (h : w.toNat < 100000)
include h

/-- Such a word reads the same signed and unsigned. -/
theorem toInt_of_lt : w.toInt = (w.toNat : Int) := by
  have hc := BitVec.toInt_eq_toNat_cond w
  split at hc <;> omega

theorem sge_zero : IntOp.cmpi .sge w 0#32 = 1#1 := by
  refine IntOp.cmpi_sge.2 ?_
  rw [toInt_of_lt w h, show (0#32 : BitVec 32).toInt = 0 from by decide]
  omega

theorem slt_len : IntOp.cmpi .slt w 100000#32 = 1#1 := by
  refine IntOp.cmpi_slt.2 ?_
  rw [toInt_of_lt w h, show (100000#32 : BitVec 32).toInt = 100000 from by decide]
  omega

theorem sle_last : IntOp.cmpi .sle w 99999#32 = 1#1 := by
  refine IntOp.cmpi_sle.2 ?_
  rw [toInt_of_lt w h, show (99999#32 : BitVec 32).toInt = 99999 from by decide]
  omega

theorem slt_zero : IntOp.cmpi .slt w 0#32 = 0#1 := by
  refine eq_zero_of_ne_one fun e => ?_
  have := IntOp.cmpi_slt.1 e
  rw [toInt_of_lt w h, show (0#32 : BitVec 32).toInt = 0 from by decide] at this
  omega

/-- The maximum with 0 keeps it. -/
theorem maxsi_zero : IntOp.maxsi 0#32 w = w := by
  unfold IntOp.maxsi
  rw [if_neg]
  rw [BitVec.slt_iff_toInt_lt, toInt_of_lt w h, show (0#32 : BitVec 32).toInt = 0 from by decide]
  omega

/-- The minimum with 99999 keeps it. -/
theorem minsi_last : IntOp.minsi 99999#32 w = w := by
  unfold IntOp.minsi
  rw [if_neg]
  rw [BitVec.slt_iff_toInt_lt, toInt_of_lt w h, show (99999#32 : BitVec 32).toInt = 99999 from by decide]
  omega

end Words

/-! ## The pieces at an index -/

/-- A rank-1 index is the index of its coordinate. -/
theorem ix1_coord (j : S4096.Idx) : (ix1 (⟨(j 0).val, (j 0).isLt⟩ : Fin 4096) : S4096.Idx) = j := by
  funext d
  match d with
  | ⟨0, _⟩ => rfl

/-- The guard holds at an in-range word. -/
theorem valid_apply (a : IVec S4096 32) (j : S4096.Idx) (h : (a j).toNat < 100000) : valid a j = 1#1 := by
  show IntOp.andi (IntOp.cmpi .sge (a j) 0#32) (IntOp.cmpi .slt (a j) 100000#32) = 1#1
  rw [sge_zero _ h, slt_len _ h]
  rfl

/-- Clamping keeps an in-range word. -/
theorem clipped_apply (a : IVec S4096 32) (j : S4096.Idx) (h : (a j).toNat < 100000) : clipped a j = a j := by
  show IntOp.minsi 99999#32 (IntOp.maxsi 0#32 (a j)) = a j
  rw [maxsi_zero _ h, minsi_last _ h]

/-- The wrap keeps an in-range word. -/
theorem wrapped_apply (s : IVec S4096 32) (j : S4096.Idx) (h : (s j).toNat < 100000) : wrapped s j = s j := by
  show Scalar.select (IntOp.cmpi .slt (s j) 0#32) (IntOp.addi (s j) 100000#32) (s j) = s j
  rw [slt_zero _ h, select_zero]

/-- The column of start indices at row `i 0` is the wrapped word of that row. -/
theorem startIdx_apply (s : IVec S4096 32) (i : S4096x1.Idx) :
    startIdx s i = wrapped s (ix1 (⟨(i 0).val, idx2_lt0 i⟩ : Fin 4096)) := by
  unfold startIdx broadcastInDim
  congr 1
  funext d
  match d with
  | ⟨0, _⟩ => rfl

/-! ## The in-bounds test -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a (List.mem_cons_self ..)]
    exact foldl_andi_one f l fun n hn => hl n (List.mem_cons_of_mem _ hn)

/-- A reduction by `and` from 1 is 1 at `j` when the operand is 1 at every index that reduces into `j`. -/
theorem reduce_andi_one {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, hr.drop i = j → x i = 1#1) : Host.reduce IntOp.andi x init hr hu j = 1#1 := by
  rw [Host.reduce_eq_foldl, hinit]
  refine foldl_andi_one x _ fun i hi => hx i ?_
  exact of_decide_eq_true (List.mem_filter.1 hi).2

/-- The start index of an in-range word is in bounds. -/
theorem inBounds_apply (s : IVec S4096 32) (j : S4096.Idx) (h : (s j).toNat < 100000) : inBounds (startIdx s) j = 1#1 := by
  unfold inBounds
  refine reduce_andi_one _ _ _ _ j rfl fun i hi => ?_
  have hrow : (ix1 (⟨(i 0).val, idx2_lt0 i⟩ : Fin 4096) : S4096.Idx) = j := by
    have h0 := Shape.ReducesTo.drop_apply_val_of_eq reducesTo_S4096x1_S4096_d1 i 0 0
    rw [hi] at h0
    rw [← ix1_coord j]
    congr 1
    exact Fin.ext h0.symm
  show IntOp.andi (IntOp.cmpi .sge (startIdx s i) 0#32) (IntOp.cmpi .sle (startIdx s i) 99999#32) = 1#1
  rw [startIdx_apply, hrow, wrapped_apply s j h, sge_zero _ h, sle_last _ h]
  rfl

/-! ## The gather -/

/-- The operand position the gather reads for result index `j`: the start index of row `j 0`, read signed and clamped
    into the table. -/
theorem gather_pos (v : IVec S4096x1 32) (j : S4096.Idx) :
    ((gather_S100000_S4096x1_S4096_n_0_n_n_0_1_1.operandIdx j v) 0).val
      = min (v (ix2 (⟨(j 0).val, (j 0).isLt⟩ : Fin 4096) (0 : Fin 1))).toInt.toNat 99999 := by
  show gather_S100000_S4096x1_S4096_n_0_n_n_0_1_1.start j v 0 + gather_S100000_S4096x1_S4096_n_0_n_n_0_1_1.batchCoord j 0
      + gather_S100000_S4096x1_S4096_n_0_n_n_0_1_1.offCoord j 0 = _
  rw [GatherDims.batchCoord_eq_zero _ _ _ List.not_mem_nil,
    GatherDims.offCoord_eq_zero _ _ _ (fun hk => ((GatherDims.mem_sKept _ _).mp hk).1 (List.mem_singleton.mpr rfl))]
  simp only [Nat.add_zero]
  unfold GatherDims.start
  rw [dif_pos (show (0 : Fin 1) ∈ gather_S100000_S4096x1_S4096_n_0_n_n_0_1_1.startIndexMap from List.mem_singleton.mpr rfl)]
  have hsi : gather_S100000_S4096x1_S4096_n_0_n_n_0_1_1.siIdx j
      ⟨List.idxOf (0 : Fin 1) gather_S100000_S4096x1_S4096_n_0_n_n_0_1_1.startIndexMap,
        List.idxOf_lt_length_iff.2 (List.mem_singleton.mpr rfl)⟩
      = ix2 (⟨(j 0).val, (j 0).isLt⟩ : Fin 4096) (0 : Fin 1) := by
    funext b
    refine Fin.ext ?_
    match b with
    | ⟨0, _⟩ => rfl
    | ⟨1, _⟩ => rfl
  rw [hsi]
  rfl

/-! ## The result -/

/-- At an index whose word is below 100000 the reference's result is the table's entry at the word's position. -/
theorem result_apply {F : FTy → Type} [FloatOps F] (tbl : FVec F S100000 .f32) (a : IVec S4096 32) (j : S4096.Idx)
    (h : (a j).toNat < 100000) : result tbl a j = tbl (Cert.Spec.pos (a j)) := by
  have hc : clipped a j = a j := clipped_apply a j h
  have hc' : (clipped a j).toNat < 100000 := by rw [hc]; exact h
  show Scalar.select (valid a j) (taken tbl (clipped a) j) _ = _
  rw [valid_apply a j h, select_one]
  show Scalar.select (inBounds (startIdx (clipped a)) j)
    (Host.gather gather_S100000_S4096x1_S4096_n_0_n_n_0_1_1 tbl (startIdx (clipped a)) j) _ = _
  rw [inBounds_apply (clipped a) j hc', select_one]
  show tbl (gather_S100000_S4096x1_S4096_n_0_n_n_0_1_1.operandIdx j (startIdx (clipped a))) = _
  congr 1
  refine Cert.Spec.pos_eq_of_val (a j) h _ ?_
  rw [gather_pos, startIdx_apply]
  show min (wrapped (clipped a) (ix1 (⟨(j 0).val, (j 0).isLt⟩ : Fin 4096))).toInt.toNat 99999 = _
  rw [ix1_coord, wrapped_apply _ j hc', hc, toInt_of_lt _ h, Int.toNat_natCast]
  omega

/-- The same for the whole array: the reference's result is the lookup of the index words in the table. -/
theorem result_eq_lookup {F : FTy → Type} [FloatOps F] (tbl : FVec F S100000 .f32) (a : IVec S4096 32)
    (h : ∀ j, (a j).toNat < 100000) : result tbl a = Cert.Spec.lookup tbl a :=
  funext fun j => result_apply tbl a j (h j)

end Cert.RefSide

end
-- ==== Proof.RefRun.lean ====
/-
  The reference side of the certificate: from any memory whose index words are all below the table's length 100000,
  every weakly fair execution of the reference program terminates, leaves its arguments unchanged, and leaves in its
  result buffer the lookup of the index words in the table. The run gives the result buffer as the program's composed
  term; read index by index under the bound, that term is the lookup.
-/
import proofs.«209424_g45870250721293_cont_8to1_b_920_9_alg».proof.Proof.RefOps
import proofs.«209424_g45870250721293_cont_8to1_b_920_9_alg».proof.Proof.RefValue

noncomputable section

namespace Cert.RefSide

open Idealize.ShloMosaic Idealize.SL.Sem

theorem run (m : (ℓ : Loc Cert.ReferenceIdeal.nD Cert.ReferenceIdeal.τ Cert.ReferenceIdeal.sig) → Buf (Elt Ideal) ℓ)
    (ρ : Dev Cert.ReferenceIdeal.nD → PrngReg)
    (hlt : ∀ (c : Dev Cert.ReferenceIdeal.nD) (j : Cert.ReferenceIdeal.S4096.Idx),
      (m ((c.tc : Thread Cert.ReferenceIdeal.nD Cert.ReferenceIdeal.τ).loc Cert.ReferenceIdeal.main_arg3) j).toNat < 100000) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v8)
          = Cert.Spec.lookup (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run _ _ _).mono (fun _ h c => ⟨(h c).1.trans (result_eq_lookup _ _ (hlt c)), (h c).2⟩)
    (run_term (F := Ideal) m ρ)

end Cert.RefSide

end
-- ==== Proof.lean ====
/-
  The claim: a table lookup computed two ways.

  The kernel hands each of sixteen vector subcores one block of 256 consecutive entries of the index array; a subcore
  copies its block of index words into a scratch list, gathers the table's entries at the positions the list names, and
  copies them out to the same block of the result. The reference clamps every index word into the table's range, reads
  the table there, and keeps the entry where the unclamped word was in range, zero elsewhere.

  The precondition bounds every index word by the table's length (0 ≤ w ≤ 99999 as a signed word, so the word's value
  is below 100000). Under it the clamp changes nothing and every entry is kept, so both programs leave, at entry `j`
  of the result, the table's entry at the position the `j`-th index word names (`Cert.Spec.lookup`); the same bound is
  what makes each gathered position a position of the table, without which the kernel's copy would not complete.
  No float arithmetic is done on either side: the equality is an equality of positions, and needs no finiteness.

  The three frames are the runs with the result's value dropped; the ideal pass rewrote nothing, so there is nothing to
  preserve.
-/
import proofs.«209424_g45870250721293_cont_8to1_b_920_9_alg».proof.Defs
import proofs.«209424_g45870250721293_cont_8to1_b_920_9_alg».proof.Proof.Gen.Kernel
import proofs.«209424_g45870250721293_cont_8to1_b_920_9_alg».proof.Proof.Gen.Kernel.Skeleton
import proofs.«209424_g45870250721293_cont_8to1_b_920_9_alg».proof.Proof.Gen.KernelIdeal
import proofs.«209424_g45870250721293_cont_8to1_b_920_9_alg».proof.Proof.Gen.KernelIdeal.Skeleton
import proofs.«209424_g45870250721293_cont_8to1_b_920_9_alg».proof.Proof.Gen.ReferenceIdeal
import proofs.«209424_g45870250721293_cont_8to1_b_920_9_alg».proof.Proof.Gen.Pre_input_domain
import proofs.«209424_g45870250721293_cont_8to1_b_920_9_alg».proof.Proof.Spec
import proofs.«209424_g45870250721293_cont_8to1_b_920_9_alg».proof.Proof.KI
import proofs.«209424_g45870250721293_cont_8to1_b_920_9_alg».proof.Proof.KB
import proofs.«209424_g45870250721293_cont_8to1_b_920_9_alg».proof.Proof.PreRange
import proofs.«209424_g45870250721293_cont_8to1_b_920_9_alg».proof.Proof.RefRun
import Idealize.ShloMosaic.Adequacy
import Idealize.ShloMosaic.Init

noncomputable section

namespace Cert.Proof

open Idealize.ShloMosaic Idealize.SL.Sem

/-- The word-level kernel runs to the end with its arguments unchanged: its run with the result's value dropped. The
    precondition's conjunct on the index array bounds every index word by the table's length. -/
theorem frame_k : @Cert.frame_Kernel Cert.Kernel.Gen.facts Cert.Pre_input_domain.Gen.facts := fun m ρ hpre =>
  (θ_run Cert.Kernel.defs _ _).mono (fun _ h c => (h c).2)
    (Cert.Proof.KB.run_main (F := Bits) m ρ (fun d => Cert.PreRange.decision_lt _ _ _ _ _ _ _ (hpre d)))

/-- The same for the idealized kernel. -/
theorem frame_ki : @Cert.frame_KernelIdeal Cert.KernelIdeal.Gen.facts Cert.Pre_input_domain.Gen.facts := fun m ρ hpre =>
  (θ_run Cert.KernelIdeal.defs _ _).mono (fun _ h c => (h c).2)
    (Cert.Proof.KI.run_main (F := Ideal) m ρ (fun d => Cert.PreRange.decision_lt _ _ _ _ _ _ _ (hpre d)))

/-- The reference runs to the end with its arguments unchanged: its run with the result's value dropped. -/
theorem frame_ri : @Cert.frame_ReferenceIdeal Cert.ReferenceIdeal.Gen.facts Cert.Pre_input_domain.Gen.facts := fun m ρ hpre =>
  (θ_run Cert.ReferenceIdeal.defs _ _).mono (fun _ h c => (h c).2)
    (Cert.RefSide.run m ρ (fun c => Cert.PreRange.decision_lt _ _ _ _ _ _ _ (hpre c)))

/-- The ideal pass rewrote nothing: there is no conjunct to prove. -/
theorem preserves : Cert.preserves_Kernel_KernelIdeal := trivial

/-- Both idealized programs end with the result array at the table read at the index array's words: the kernel by
    its run, the reference by its own, from memories that agree on the table and on the index array. -/
theorem algebraic : @Cert.algebraic_KernelIdeal_ReferenceIdeal Cert.KernelIdeal.Gen.facts Cert.ReferenceIdeal.Gen.facts Cert.Pre_input_domain.Gen.facts := by
  intro m ρ m' ρ' hpre hagree
  have hlt : Cert.Proof.KI.PreOK (F := Ideal) m := fun d => Cert.PreRange.decision_lt _ _ _ _ _ _ _ (hpre d)
  refine ⟨fun c => Cert.Proof.KI.G (F := Ideal) m c,
    (θ_run Cert.KernelIdeal.defs _ _).mono (fun _ h c => h c) (Cert.Proof.KI.run_main (F := Ideal) m ρ hlt), ?_⟩
  have hlt' : ∀ (c : Dev Cert.ReferenceIdeal.nD) (j : Cert.ReferenceIdeal.S4096.Idx),
      (m' ((c.tc : Thread Cert.ReferenceIdeal.nD Cert.ReferenceIdeal.τ).loc Cert.ReferenceIdeal.main_arg3) j).toNat < 100000 := fun c j => by
    rw [(hagree c).2.2.2.1]; exact hlt c j
  refine (θ_run Cert.ReferenceIdeal.defs _ _).mono (fun _ h c => ⟨(h c).1.trans ?_, (h c).2⟩) (Cert.RefSide.run m' ρ' hlt')
  rw [(hagree c).2.2.2.1, (hagree c).2.2.2.2.2.2]
  rfl

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
